-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x2048 : Shape := ⟨2, ![8192, 2048]⟩
abbrev S2048x8192 : Shape := ⟨2, ![2048, 8192]⟩
abbrev S8192 : Shape := ⟨1, ![8192]⟩
abbrev S2048 : Shape := ⟨1, ![2048]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S2048x8192 : S_.BroadcastsInDim S2048x8192 (![] : Fin 0 → Fin S2048x8192.rank)
  reducesTo_S2048x8192_S_d0_1 : S2048x8192.ReducesTo [0, 1] S_
  bcast_S_S8192 : S_.BroadcastsInDim S8192 (![] : Fin 0 → Fin S8192.rank)
  reducesTo_S8192_S_d0 : S8192.ReducesTo [0] S_
  bcast_S_S2048 : S_.BroadcastsInDim S2048 (![] : Fin 0 → Fin S2048.rank)
  reducesTo_S2048_S_d0 : S2048.ReducesTo [0] S_

variable [Facts]

def fn_part1 {F : FTy → Type} [FloatOps F] (main_arg4 : FVec F S2048 .f32) (main_v13 : IVec S_ 1) (main_v16 : IVec S8192x2048 1) : IVec S_ 1 :=
  let main_c_5 : IVec S_ 1 := constantI S_ 1 1#1
  let main_v17 : IVec S_ 1 := (fun x v => Host.reduce IntOp.andi x v reducesTo_S8192x2048_S_d0_1 h_S_) main_v16 main_c_5
  let main_v18 : IVec S_ 1 := andi main_v13 main_v17
  let main_v19 : FVec F S2048 .f32 := Host.absf main_arg4
  let main_cst_6 : FVec F S_ .f32 := constant S_ .f32 0x7F800000#32
  let main_v20 : FVec F S2048 .f32 := broadcastInDim S2048 ![] bcast_S_S2048 main_cst_6
  let main_v21 : IVec S2048 1 := cmpf .olt main_v19 main_v20
  let main_c_7 : IVec S_ 1 := constantI S_ 1 1#1
  let main_v22 : IVec S_ 1 := (fun x v => Host.reduce IntOp.andi x v reducesTo_S2048_S_d0 h_S_) main_v21 main_c_7
  let main_v23 : IVec S_ 1 := andi main_v18 main_v22
  main_v23

def fn {F : FTy → Type} [FloatOps F] (main_arg0 : FVec F S8192x2048 .f32) (main_arg1 : FVec F S2048x8192 .f32) (main_arg2 : FVec F S8192 .f32) (main_arg3 : FVec F S8192x2048 .f32) (main_arg4 : FVec F S2048 .f32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S2048x8192 .f32 := Host.absf main_arg1
  let main_cst_0 : FVec F S_ .f32 := constant S_ .f32 0x7F800000#32
  let main_v5 : FVec F S2048x8192 .f32 := broadcastInDim S2048x8192 ![] bcast_S_S2048x8192 main_cst_0
  let main_v6 : IVec S2048x8192 1 := cmpf .olt main_v4 main_v5
  let main_c_1 : IVec S_ 1 := constantI S_ 1 1#1
  let main_v7 : IVec S_ 1 := (fun x v => Host.reduce IntOp.andi x v reducesTo_S2048x8192_S_d0_1 h_S_) main_v6 main_c_1
  let main_v8 : IVec S_ 1 := andi main_v3 main_v7
  let main_v9 : FVec F S8192 .f32 := Host.absf main_arg2
  let main_cst_2 : FVec F S_ .f32 := constant S_ .f32 0x7F800000#32
  let main_v10 : FVec F S8192 .f32 := broadcastInDim S8192 ![] bcast_S_S8192 main_cst_2
  let main_v11 : IVec S8192 1 := cmpf .olt main_v9 main_v10
  let main_c_3 : IVec S_ 1 := constantI S_ 1 1#1
  let main_v12 : IVec S_ 1 := (fun x v => Host.reduce IntOp.andi x v reducesTo_S8192_S_d0 h_S_) main_v11 main_c_3
  let main_v13 : IVec S_ 1 := andi main_v8 main_v12
  let main_v14 : FVec F S8192x2048 .f32 := Host.absf main_arg3
  let main_cst_4 : FVec F S_ .f32 := constant S_ .f32 0x7F800000#32
  let main_v15 : FVec F S8192x2048 .f32 := broadcastInDim S8192x2048 ![] bcast_S_S8192x2048 main_cst_4
  let main_v16 : IVec S8192x2048 1 := cmpf .olt main_v14 main_v15
  fn_part1 (F := F) main_arg4 main_v13 main_v16
-- ==== Kernel.lean ====
abbrev S8192x2048 : Shape := ⟨2, ![8192, 2048]⟩
abbrev S2048x8192 : Shape := ⟨2, ![2048, 8192]⟩
abbrev S8192 : Shape := ⟨1, ![8192]⟩
abbrev S2048 : Shape := ⟨1, ![2048]⟩
abbrev S8192x8192 : Shape := ⟨2, ![8192, 8192]⟩
abbrev S512x2048 : Shape := ⟨2, ![512, 2048]⟩
abbrev S2048x4096 : Shape := ⟨2, ![2048, 4096]⟩
abbrev S4096 : Shape := ⟨1, ![4096]⟩
abbrev S512x4096 : Shape := ⟨2, ![512, 4096]⟩
abbrev S1x4096 : Shape := ⟨2, ![1, 4096]⟩
abbrev S512x8192 : Shape := ⟨2, ![512, 8192]⟩
abbrev S1x2048 : Shape := ⟨2, ![1, 2048]⟩

abbrev nBuf : Space → Nat
  | .hbm => 9
  | .vmem => 14
  | .smem => 0
  | _ => 0

abbrev bufTy : (tb : Table) → Fin (tcTables nBuf tb) → BufTy
  | .hbm, ⟨0, _⟩ => ⟨S8192x2048, .f32⟩
  | .hbm, ⟨1, _⟩ => ⟨S2048x8192, .f32⟩
  | .hbm, ⟨2, _⟩ => ⟨S8192, .f32⟩
  | .hbm, ⟨3, _⟩ => ⟨S8192x2048, .f32⟩
  | .hbm, ⟨4, _⟩ => ⟨S2048, .f32⟩
  | .hbm, ⟨5, _⟩ => ⟨S2048x8192, .bf16⟩
  | .hbm, ⟨6, _⟩ => ⟨S8192x2048, .bf16⟩
  | .hbm, ⟨7, _⟩ => ⟨S8192x8192, .bf16⟩
  | .hbm, ⟨8, _⟩ => ⟨S8192x2048, .f32⟩
  | .local _ .vmem, ⟨0, _⟩ => ⟨S512x2048, .f32⟩
  | .local _ .vmem, ⟨1, _⟩ => ⟨S512x2048, .f32⟩
  | .local _ .vmem, ⟨2, _⟩ => ⟨S2048x4096, .bf16⟩
  | .local _ .vmem, ⟨3, _⟩ => ⟨S2048x4096, .bf16⟩
  | .local _ .vmem, ⟨4, _⟩ => ⟨S4096, .f32⟩
  | .local _ .vmem, ⟨5, _⟩ => ⟨S4096, .f32⟩
  | .local _ .vmem, ⟨6, _⟩ => ⟨S512x4096, .bf16⟩
  | .local _ .vmem, ⟨7, _⟩ => ⟨S512x4096, .bf16⟩
  | .local _ .vmem, ⟨8, _⟩ => ⟨S512x8192, .bf16⟩
  | .local _ .vmem, ⟨9, _⟩ => ⟨S512x8192, .bf16⟩
  | .local _ .vmem, ⟨10, _⟩ => ⟨S8192x2048, .bf16⟩
  | .local _ .vmem, ⟨11, _⟩ => ⟨S2048, .f32⟩
  | .local _ .vmem, ⟨12, _⟩ => ⟨S512x2048, .f32⟩
  | .local _ .vmem, ⟨13, _⟩ => ⟨S512x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_call0_v0 : Ref sig .tc := ⟨.hbm, 7, rfl⟩
abbrev main_v2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem3_1 : DmaSem sig := 13

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  ![arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x8192 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S8192x2048 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S2048 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S512x2048 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  bitsLt_bf16_f32 : FTy.bits .bf16 < FTy.bits .f32
  inb_S512x2048_S512x2048_0_0 : ∀ a, (![0, 0] : Fin 2 → Nat) a + S512x2048.size a ≤ S512x2048.size a
  h_S512x2048 : 0 < S512x2048.numel
  inb_S2048x4096_S2048x4096_0_0 : ∀ a, (![0, 0] : Fin 2 → Nat) a + S2048x4096.size a ≤ S2048x4096.size a
  h_S2048x4096 : 0 < S2048x4096.numel
  shapeCasts_S2048x4096_S2048x4096 : S2048x4096.ShapeCasts S2048x4096
  inb_S4096_S4096_0 : ∀ a, (![0] : Fin 1 → Nat) a + S4096.size a ≤ S4096.size a
  h_S4096 : 0 < S4096.numel
  shapeCasts_S4096_S1x4096 : S4096.ShapeCasts S1x4096
  broadcasts_S1x4096_S512x4096 : S1x4096.Broadcasts S512x4096
  inb_S512x4096_S512x4096_0_0 : ∀ a, (![0, 0] : Fin 2 → Nat) a + S512x4096.size a ≤ S512x4096.size a
  h_S512x4096 : 0 < S512x4096.numel
  packedbf16_S512x4096_S512x4096_0_0 : (Rect.unit (s := S512x4096) ![0, 0] S512x4096.size inb_S512x4096_S512x4096_0_0).PackedRows (EltTy.packing .bf16)
  inb_S512x8192_S512x8192_0_0 : ∀ a, (![0, 0] : Fin 2 → Nat) a + S512x8192.size a ≤ S512x8192.size a
  h_S512x8192 : 0 < S512x8192.numel
  shapeCasts_S512x8192_S512x8192 : S512x8192.ShapeCasts S512x8192
  inb_S8192x2048_S8192x2048_0_0 : ∀ a, (![0, 0] : Fin 2 → Nat) a + S8192x2048.size a ≤ S8192x2048.size a
  h_S8192x2048 : 0 < S8192x2048.numel
  shapeCasts_S8192x2048_S8192x2048 : S8192x2048.ShapeCasts S8192x2048
  inb_S2048_S2048_0 : ∀ a, (![0] : Fin 1 → Nat) a + S2048.size a ≤ S2048.size a
  h_S2048 : 0 < S2048.numel
  shapeCasts_S2048_S1x2048 : S2048.ShapeCasts S1x2048
  broadcasts_S1x2048_S512x2048 : S1x2048.Broadcasts S512x2048
  dot_S512x2048_S2048x4096_S512x4096_1_0_0_1_n_n_wf : DotDims.WF S512x2048 S2048x4096 S512x4096 [1] [0] [0] [1] [] []
  dot_S512x8192_S8192x2048_S512x2048_1_0_0_1_n_n_wf : DotDims.WF S512x8192 S8192x2048 S512x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S8192x2048.size a
  hwx0_0 : ∀ i : grid0.Coords, EltTy.bits .f32 = 32 ∨ (Rect.block (s := S8192x2048) S512x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x4096.size a ≤ S2048x8192.size a
  hwx0_1 : ∀ i : grid0.Coords, EltTy.bits .bf16 = 32 ∨ (Rect.block (s := S2048x8192) S2048x4096.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096.size a ≤ S8192.size a
  hwx0_2 : ∀ i : grid0.Coords, EltTy.bits .f32 = 32 ∨ (Rect.block (s := S8192) S4096.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x4096.size a ≤ S8192x8192.size a
  hwx0_3 : ∀ i : grid0.Coords, EltTy.bits .bf16 = 32 ∨ (Rect.block (s := S8192x8192) S512x4096.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x8192.size a ≤ S8192x8192.size a
  hwx1_0 : ∀ i : grid1.Coords, EltTy.bits .bf16 = 32 ∨ (Rect.block (s := S8192x8192) S512x8192.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S8192x2048.size a ≤ S8192x2048.size a
  hwx1_1 : ∀ i : grid1.Coords, EltTy.bits .bf16 = 32 ∨ (Rect.block (s := S8192x2048) S8192x2048.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S2048.size a ≤ S2048.size a
  hwx1_2 : ∀ i : grid1.Coords, EltTy.bits .f32 = 32 ∨ (Rect.block (s := S2048) S2048.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x2048.size a ≤ S8192x2048.size a
  hwx1_3 : ∀ i : grid1.Coords, EltTy.bits .f32 = 32 ∨ (Rect.block (s := S8192x2048) S512x2048.size (cc1_transform_3 i) (hinb1_3 i)).WholeWords (EltTy.packing .f32)

variable [Facts₀]

def dot_S512x2048_S2048x4096_S512x4096_1_0_0_1_n_n : DotDims S512x2048 S2048x4096 S512x4096 where
  lhsContracting := [1]
  rhsContracting := [0]
  lhsNonContracting := [0]
  rhsNonContracting := [1]
  lhsBatch := []
  rhsBatch := []
  wf := dot_S512x2048_S2048x4096_S512x4096_1_0_0_1_n_n_wf
def dot_S512x8192_S8192x2048_S512x2048_1_0_0_1_n_n : DotDims S512x8192 S8192x2048 S512x2048 where
  lhsContracting := [1]
  rhsContracting := [0]
  lhsNonContracting := [0]
  rhsNonContracting := [1]
  lhsBatch := []
  rhsBatch := []
  wf := dot_S512x8192_S8192x2048_S512x2048_1_0_0_1_n_n_wf

abbrev win0_0 : Pipeline.Window sig grid0 :=
  Pipeline.Window.ofSpec (Memref.whole main_arg0) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S2048x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S4096.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_call0_v0) S512x4096.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_call0_v0) S512x8192.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S8192x2048.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S2048.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v2) S512x2048.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S8192x2048 : Shape := ⟨2, ![8192, 2048]⟩
abbrev S2048x8192 : Shape := ⟨2, ![2048, 8192]⟩
abbrev S8192 : Shape := ⟨1, ![8192]⟩
abbrev S2048 : Shape := ⟨1, ![2048]⟩
abbrev S8192x8192 : Shape := ⟨2, ![8192, 8192]⟩
abbrev S1x8192 : Shape := ⟨2, ![1, 8192]⟩
abbrev S_ : Shape := ⟨0, ![]⟩
abbrev S1x2048 : Shape := ⟨2, ![1, 2048]⟩

abbrev nBuf : Space → Nat
  | .hbm => 16
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x8192, .f32⟩
  | .hbm, ⟨2, _⟩ => ⟨S8192, .f32⟩
  | .hbm, ⟨3, _⟩ => ⟨S8192x2048, .f32⟩
  | .hbm, ⟨4, _⟩ => ⟨S2048, .f32⟩
  | .hbm, ⟨5, _⟩ => ⟨S8192x8192, .f32⟩
  | .hbm, ⟨6, _⟩ => ⟨S1x8192, .f32⟩
  | .hbm, ⟨7, _⟩ => ⟨S8192x8192, .f32⟩
  | .hbm, ⟨8, _⟩ => ⟨S8192x8192, .f32⟩
  | .hbm, ⟨9, _⟩ => ⟨S_, .f32⟩
  | .hbm, ⟨10, _⟩ => ⟨S8192x8192, .f32⟩
  | .hbm, ⟨11, _⟩ => ⟨S8192x8192, .f32⟩
  | .hbm, ⟨12, _⟩ => ⟨S8192x2048, .f32⟩
  | .hbm, ⟨13, _⟩ => ⟨S1x2048, .f32⟩
  | .hbm, ⟨14, _⟩ => ⟨S8192x2048, .f32⟩
  | .hbm, ⟨15, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩

abbrev nD : Nat := 1
abbrev τ : Topo := Topo.v7x

variable {F : FTy → Type} [FloatOps F]

class Facts₀ : Prop where
  bcast_S8192_S1x8192_1 : S8192.BroadcastsInDim S1x8192 (![1] : Fin 1 → Fin S1x8192.rank)
  bcast_S1x8192_S8192x8192_0_1 : S1x8192.BroadcastsInDim S8192x8192 (![0, 1] : Fin 2 → Fin S8192x8192.rank)
  bcast_S_S8192x8192 : S_.BroadcastsInDim S8192x8192 (![] : Fin 0 → Fin S8192x8192.rank)
  bcast_S2048_S1x2048_1 : S2048.BroadcastsInDim S1x2048 (![1] : Fin 1 → Fin S1x2048.rank)
  bcast_S1x2048_S8192x2048_0_1 : S1x2048.BroadcastsInDim S8192x2048 (![0, 1] : Fin 2 → Fin S8192x2048.rank)
  dot_S8192x2048_S2048x8192_S8192x8192_1_0_0_1_n_n_wf : DotDims.WF S8192x2048 S2048x8192 S8192x8192 [1] [0] [0] [1] [] []
  dot_S8192x8192_S8192x2048_S8192x2048_1_0_0_1_n_n_wf : DotDims.WF S8192x8192 S8192x2048 S8192x2048 [1] [0] [0] [1] [] []

variable [Facts₀]

def dot_S8192x2048_S2048x8192_S8192x8192_1_0_0_1_n_n : DotDims S8192x2048 S2048x8192 S8192x8192 where
  lhsContracting := [1]
  rhsContracting := [0]
  lhsNonContracting := [0]
  rhsNonContracting := [1]
  lhsBatch := []
  rhsBatch := []
  wf := dot_S8192x2048_S2048x8192_S8192x8192_1_0_0_1_n_n_wf
def dot_S8192x8192_S8192x2048_S8192x2048_1_0_0_1_n_n : DotDims S8192x8192 S8192x2048 S8192x2048 where
  lhsContracting := [1]
  rhsContracting := [0]
  lhsNonContracting := [0]
  rhsNonContracting := [1]
  lhsBatch := []
  rhsBatch := []
  wf := dot_S8192x8192_S8192x2048_S8192x2048_1_0_0_1_n_n_wf

class Facts : Prop extends Facts₀ where

variable [Facts]
-- ==== Proof.Spec.lean ====
/-
  The function both programs compute, over the extended reals: a two-layer feed-forward network
  out = relu (x · W1 + b1) · W2 + b2 on x : [8192, 2048], W1 : [2048, 8192], b1 : [8192], W2 : [8192, 2048],
  b2 : [2048]. Each matrix product is the plain sum over the contracted coordinate, each bias is added along the
  columns, and relu is the maximum with zero. No rounding enters: at the exact values a change of float format
  is the identity, so the narrow copy of a weight matrix is the matrix itself.
-/
import Idealize.ShloMosaic.PureOps.Ideal
import Idealize.ShloMosaic.Lib.ValueIdx

noncomputable section

namespace Cert.Ffn

open Idealize.ShloMosaic Idealize.ShloMosaic.ValueIdx

/-- Tokens by model width: the shape of x, of W2 and of the result. -/
abbrev STokModel : Shape := ⟨2, ![8192, 2048]⟩
/-- Model width by hidden width: the shape of W1. -/
abbrev SModelHid : Shape := ⟨2, ![2048, 8192]⟩
/-- Tokens by hidden width: the shape of the hidden activations. -/
abbrev STokHid : Shape := ⟨2, ![8192, 8192]⟩
/-- The hidden bias b1. -/
abbrev SHid : Shape := ⟨1, ![8192]⟩
/-- The output bias b2. -/
abbrev SModel : Shape := ⟨1, ![2048]⟩

/-- One hidden activation: relu of row `r` of x against column `c` of W1, plus b1 at `c`. -/
def hiddenAt (x : STokModel.Idx → EReal) (w1 : SModelHid.Idx → EReal) (b1 : SHid.Idx → EReal)
    (r : Fin 8192) (c : Fin 8192) : EReal :=
  max ((∑ k : Fin 2048, x (ix2 r k) * w1 (ix2 k c)) + b1 (ix1 c)) 0

/-- The hidden activations relu (x · W1 + b1) as an array. -/
def hidden (x : STokModel.Idx → EReal) (w1 : SModelHid.Idx → EReal) (b1 : SHid.Idx → EReal) :
    STokHid.Idx → EReal :=
  fun i => hiddenAt x w1 b1 (i 0) (i 1)

/-- One entry of a product with a column bias: row `r` of h against column `c` of W2, plus b2 at `c`. -/
def affineAt (h : STokHid.Idx → EReal) (w2 : STokModel.Idx → EReal) (b2 : SModel.Idx → EReal)
    (r : Fin 8192) (c : Fin 2048) : EReal :=
  (∑ k : Fin 8192, h (ix2 r k) * w2 (ix2 k c)) + b2 (ix1 c)

/-- The second layer h · W2 + b2 as an array. -/
def affine (h : STokHid.Idx → EReal) (w2 : STokModel.Idx → EReal) (b2 : SModel.Idx → EReal) :
    STokModel.Idx → EReal :=
  fun i => affineAt h w2 b2 (i 0) (i 1)

/-- The network: the second layer applied to the hidden activations. -/
def ffn (x : STokModel.Idx → EReal) (w1 : SModelHid.Idx → EReal) (b1 : SHid.Idx → EReal)
    (w2 : STokModel.Idx → EReal) (b2 : SModel.Idx → EReal) : STokModel.Idx → EReal :=
  affine (hidden x w1 b1) w2 b2

end Cert.Ffn

end
-- ==== Proof.RefValue.lean ====
/-
  The reference, read entry by entry: its result at (r, c) is the sum over the hidden coordinate k of
  relu ((Σ_l x[r,l] · W1[l,k]) + b1[k]) · W2[k,c], plus b2[c] — the network of Spec.lean. Each stage of the reference
  is read at an index by the generated read-at-an-index lemmas; what is written here is that the indices those
  lemmas compose are the plain (row, column) pairs, and that the zero literal is the extended real 0.
-/
import proofs.«155103_g86363202388559_cont_9to1c4b_744_23_alg».proof.Proof.Gen.ReferenceIdeal.Read
import proofs.«155103_g86363202388559_cont_9to1c4b_744_23_alg».proof.Proof.Spec
import Idealize.ShloMosaic.PureOps.Ideal.Laws

noncomputable section

namespace Cert.ReferenceIdeal.RefValue

open Cert.ReferenceIdeal Cert.ReferenceIdeal.Read Idealize.ShloMosaic Idealize.ShloMosaic.ValueIdx

/-- The reference's result array is the network's, as one function of the five argument arrays. -/
theorem ref_eq (x0 : (⟨S8192x2048, .f32⟩ : BufTy).Contents (Elt Ideal)) (x1 : (⟨S2048x8192, .f32⟩ : BufTy).Contents (Elt Ideal))
    (x2 : (⟨S8192, .f32⟩ : BufTy).Contents (Elt Ideal)) (x3 : (⟨S8192x2048, .f32⟩ : BufTy).Contents (Elt Ideal))
    (x4 : (⟨S2048, .f32⟩ : BufTy).Contents (Elt Ideal)) :
    val_main_v9 (F := Ideal) x0 x1 x2 x3 x4 = Cert.Ffn.ffn x0 x1 x2 x3 x4 := by
  funext i
  obtain ⟨r, c, rfl⟩ : ∃ (r : Fin 8192) (c : Fin 2048), i = ix2 r c := ⟨i 0, i 1, eq_ix2 i⟩
  rw [val_main_v9_apply, val_main_v6_apply, val_main_v8_apply, val_main_v7_apply]
  simp only [val_main_v5_apply, val_main_v3_apply, val_main_v0_apply, val_main_v2_apply, val_main_v1_apply,
    val_main_v4_apply, val_main_cst_apply]
  have hl6 : ∀ k : Fin 8192, lidx_main_v6 (ix2 r c) k = ix2 r k :=
    fun k => funext fun a => by match a with | ⟨0, _⟩ => rfl | ⟨1, _⟩ => rfl
  have hr6 : ∀ k : Fin 8192, ridx_main_v6 (ix2 r c) k = ix2 k c :=
    fun k => funext fun a => by match a with | ⟨0, _⟩ => rfl | ⟨1, _⟩ => rfl
  have hl0 : ∀ (k : Fin 8192) (l : Fin 2048), lidx_main_v0 (ix2 r k) l = ix2 r l :=
    fun k l => funext fun a => by match a with | ⟨0, _⟩ => rfl | ⟨1, _⟩ => rfl
  have hr0 : ∀ (k : Fin 8192) (l : Fin 2048), ridx_main_v0 (ix2 r k) l = ix2 l k :=
    fun k l => funext fun a => by match a with | ⟨0, _⟩ => rfl | ⟨1, _⟩ => rfl
  have hb1 : ∀ k : Fin 8192, idx_main_v1 (idx_main_v2 (ix2 r k)) = ix1 k :=
    fun k => funext fun a => by match a with | ⟨0, _⟩ => rfl
  have hb2 : idx_main_v7 (idx_main_v8 (ix2 r c)) = ix1 c :=
    funext fun a => by match a with | ⟨0, _⟩ => rfl
  simp only [hl6, hr6, hl0, hr0, hb1, hb2, Ideal.addf_def, Ideal.maximumf_def, Ideal.ofBits_def, Ideal.ofBits_zero_f32]
  rfl

end Cert.ReferenceIdeal.RefValue

end
-- ==== Proof.Whole.lean ====
/-
  The whole program's run with its result buffer named. The program is two stretches: the host rounds the two weight
  matrices to the narrow format, then two kernel regions run one after the other, the second reading the array the
  first wrote. The buffers' contents at each boundary are a fold from the launch memory (host operations applied,
  then each region's arrays replaced by what its write-backs leave); at the end every unscoped buffer holds the last
  boundary's contents. Read at the result buffer this is the second region's output array after its last write-back,
  entered from contents in which the first region's output array is ITS array after its last write-back.
-/
import proofs.«155103_g86363202388559_cont_9to1c4b_744_23_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, and at the end every unscoped buffer of every core holds the contents of
    the last boundary of the fold. -/
theorem run_boundary : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h => h)

/-- The run with the result named: the result buffer ends as the second region's output array after its last
    write-back, and the five arguments end as launched. -/
theorem run_named : θ_run defs (onTc (τ := τ) (main (F := F))) ⟨m, fun _ => 0, ρ⟩ (fun r => ∀ c : Dev nD,
      r.2.mem ((c.tc : Thread nD τ).loc main_v2) = (dat1 (V2 m ρ) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
      ⟨(h c _ (mem_uc main_v2 (by decide))).trans (W3_arr m ρ c 3),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c),
       (h c _ (mem_uc main_arg4 (by decide))).trans (W3_main_arg4 m ρ c)⟩)
    (run_boundary m ρ)

end Cert.KernelIdeal.Whole

end
-- ==== Proof.Layer1.lean ====
/-
  The first kernel region, read as values. Its grid has 2 × 16 points; at point t (column block t / 16, row block
  t % 16) the body multiplies a [512, 2048] block of rows of x by a [2048, 4096] block of columns of the narrow copy
  of W1, adds the matching [4096] stretch of b1 along the columns, takes the maximum with zero and writes the
  [512, 4096] block (t % 16, t / 16) of the hidden array. A block's element sits in its array at block index × block
  size + its own coordinate, so entry (r, c) of what point t writes is relu ((Σ_k x[r,k] · W1'[k,c]) + b1[c]) at the
  array's own (r, c): every point writes a restriction of ONE function of the arrays the region finds, and the 32
  blocks tile the hidden array. Everything is stated for arbitrary contents `V` of the buffers at the region's entry.
-/
import proofs.«155103_g86363202388559_cont_9to1c4b_744_23_alg».proof.Proof.Gen.KernelIdeal.Frame
import proofs.«155103_g86363202388559_cont_9to1c4b_744_23_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Layer1

open Cert.KernelIdeal Cert.KernelIdeal.Gen Idealize.ShloMosaic Idealize.ShloMosaic.TcCoe Idealize.SL.Sem
open Idealize.ShloMosaic.ValueIdx
open Idealize.ShloMosaic.Pipeline (Dat)

theorem zeros2 : (![0, 0] : Fin 2 → Nat) = fun _ => 0 := funext fun a => by fin_cases a <;> rfl
theorem zeros1 : (![0] : Fin 1 → Nat) = fun _ => 0 := funext fun a => by fin_cases a <;> rfl

/-! ## The body's arithmetic at one entry of the block -/

/-- The left operand of the block product is read along the output's row … -/
theorem lhs_row (i : S512x4096.Idx) (q : dot_S512x2048_S2048x4096_S512x4096_1_0_0_1_n_n.contr.Idx) :
    (dot_S512x2048_S2048x4096_S512x4096_1_0_0_1_n_n.lhsIdx i q 0).val = (i 0).val := by
  unfold DotDims.lhsIdx
  rw [dif_neg (show ¬(0 : Fin S512x2048.rank) ∈ dot_S512x2048_S2048x4096_S512x4096_1_0_0_1_n_n.lhsBatch by decide), dif_pos (show (0 : Fin S512x2048.rank) ∈ dot_S512x2048_S2048x4096_S512x4096_1_0_0_1_n_n.lhsNonContracting by decide)]
  rfl
/-- … and the right operand down the output's column. -/
theorem rhs_col (i : S512x4096.Idx) (q : dot_S512x2048_S2048x4096_S512x4096_1_0_0_1_n_n.contr.Idx) :
    (dot_S512x2048_S2048x4096_S512x4096_1_0_0_1_n_n.rhsIdx i q 1).val = (i 1).val := by
  unfold DotDims.rhsIdx
  rw [dif_neg (show ¬(1 : Fin S2048x4096.rank) ∈ dot_S512x2048_S2048x4096_S512x4096_1_0_0_1_n_n.rhsBatch by decide), dif_pos (show (1 : Fin S2048x4096.rank) ∈ dot_S512x2048_S2048x4096_S512x4096_1_0_0_1_n_n.rhsNonContracting by decide)]
  rfl

/-- The block product into a zero accumulator, at (p, q): the sum over the 2048 contracted coordinates. -/
theorem product_apply (x0 : FVec Ideal S512x2048 .f32) (x1 : FVec Ideal S2048x4096 .bf16) (p : Fin 512) (q : Fin 4096) :
    FloatOps.matmul dot_S512x2048_S2048x4096_S512x4096_1_0_0_1_n_n none x0 x1 (constant (F := Ideal) S512x4096 .f32 0x00000000#32) (ix2 p q)
      = ∑ k : Fin 2048, x0 (ix2 p k) * x1 (ix2 k q) := by
  rw [Ideal.matmul_constant_zero_apply, ← Equiv.sum_comp (contrEquiv1 dot_S512x2048_S2048x4096_S512x4096_1_0_0_1_n_n 2048 rfl rfl).symm]
  refine Finset.sum_congr rfl fun k _ => ?_
  have hk := contrEquiv1_symm_val dot_S512x2048_S2048x4096_S512x4096_1_0_0_1_n_n 2048 rfl rfl k
  have el : dot_S512x2048_S2048x4096_S512x4096_1_0_0_1_n_n.lhsIdx (ix2 p q) ((contrEquiv1 dot_S512x2048_S2048x4096_S512x4096_1_0_0_1_n_n 2048 rfl rfl).symm k) = ix2 p k := funext fun a => Fin.ext (by
    match a with
    | ⟨0, _⟩ => exact lhs_row _ _
    | ⟨1, _⟩ => exact (dot_S512x2048_S2048x4096_S512x4096_1_0_0_1_n_n.lhsIdx_val_of_single rfl _ _).trans hk)
  have er : dot_S512x2048_S2048x4096_S512x4096_1_0_0_1_n_n.rhsIdx (ix2 p q) ((contrEquiv1 dot_S512x2048_S2048x4096_S512x4096_1_0_0_1_n_n 2048 rfl rfl).symm k) = ix2 k q := funext fun a => Fin.ext (by
    match a with
    | ⟨0, _⟩ => exact (dot_S512x2048_S2048x4096_S512x4096_1_0_0_1_n_n.rhsIdx_val_of_single rfl _ _).trans hk
    | ⟨1, _⟩ => exact rhs_col _ _)
  rw [el, er]

/-- What the body stores, at (p, q) of the block: relu of the block product's entry plus the bias at q. -/
theorem pay_apply (x0 : Vec Ideal S512x2048 .f32) (x1 : Vec Ideal S2048x4096 .bf16) (x2 : Vec Ideal S4096 .f32)
    (p : Fin 512) (q : Fin 4096) :
    k0_pay1 x0 x1 x2 (ix2 p q) = max ((∑ k : Fin 2048, x0 (ix2 p k) * x1 (ix2 k q)) + x2 (ix1 q)) 0 := by
  unfold k0_pay1
  show max (FloatOps.matmul dot_S512x2048_S2048x4096_S512x4096_1_0_0_1_n_n none x0 (shapeCast S2048x4096 x1 shapeCasts_S2048x4096_S2048x4096)
        (constant (F := Ideal) S512x4096 .f32 0x00000000#32) (ix2 p q)
      + broadcastTo S512x4096 (shapeCast S1x4096 x2 shapeCasts_S4096_S1x4096) broadcasts_S1x4096_S512x4096 (ix2 p q))
      (Ideal.ofBits .f32 0x00000000#32) = _
  rw [shapeCast_self, product_apply, broadcastTo_1b_ab_apply, shapeCast_a_1a_apply, Ideal.ofBits_zero_f32]

/-- The same entry with the three blocks recognised as pieces of arrays `x`, `w`, `b`: when the row block starts at
    row `tr · 512` and the column block at column `tc · 4096`, entry `j` of the stored block is the hidden activation
    at the array index `i` that `j` lands on. -/
theorem point_eq (x : S8192x2048.Idx → EReal) (w : S2048x8192.Idx → EReal) (b : S8192.Idx → EReal)
    (x0 : Vec Ideal S512x2048 .f32) (x1 : Vec Ideal S2048x4096 .bf16) (x2 : Vec Ideal S4096 .f32) (tr tc : Nat)
    (h0 : ∀ (y : S512x2048.Idx) (k : S8192x2048.Idx), (k 0).val = tr * 512 + (y 0).val → (k 1).val = (y 1).val → x0 y = x k)
    (h1 : ∀ (y : S2048x4096.Idx) (k : S2048x8192.Idx), (k 0).val = (y 0).val → (k 1).val = tc * 4096 + (y 1).val → x1 y = w k)
    (h2 : ∀ (y : S4096.Idx) (k : S8192.Idx), (k 0).val = tc * 4096 + (y 0).val → x2 y = b k)
    (j : S512x4096.Idx) (i : S8192x8192.Idx) (hi0 : (i 0).val = tr * 512 + (j 0).val) (hi1 : (i 1).val = tc * 4096 + (j 1).val) :
    k0_pay1 x0 x1 x2 j = Cert.Ffn.hidden x w b i := by
  obtain ⟨p, q, rfl⟩ : ∃ (p : Fin 512) (q : Fin 4096), j = ix2 p q := ⟨j 0, j 1, eq_ix2 j⟩
  obtain ⟨r, s, rfl⟩ : ∃ (r : Fin 8192) (s : Fin 8192), i = ix2 r s := ⟨i 0, i 1, eq_ix2 i⟩
  rw [pay_apply]
  show _ = max ((∑ k : Fin 2048, x (ix2 r k) * w (ix2 k s)) + b (ix1 s)) 0
  rw [h2 (ix1 q) (ix1 s) hi1]
  refine congrArg (fun z => max (z + b (ix1 s)) 0) (Finset.sum_congr rfl fun k _ => ?_)
  rw [h0 (ix2 p k) (ix2 r k) hi0 rfl, h1 (ix2 k q) (ix2 k s) rfl hi1]

/-! ## The blocks of the windows, as pieces of the arrays the region finds -/

variable (V : (c : Dev nD) → (b : Ref sig .tc) → Buf (Elt Ideal) ((c : Thread nD τ).loc b))

/-- The printed index maps over the 32 grid points: x moves with the row block t % 16, the weight and the bias with
    the column block t / 16, the output with both. -/
theorem block_indices : ∀ t : Fin cfg0.N,
    win0_0.index t (0 : Fin 2) = t.val % 16 ∧ win0_0.index t (1 : Fin 2) = 0
    ∧ win0_1.index t (0 : Fin 2) = 0 ∧ win0_1.index t (1 : Fin 2) = t.val / 16
    ∧ win0_2.index t (0 : Fin 1) = t.val / 16
    ∧ win0_3.index t (0 : Fin 2) = t.val % 16 ∧ win0_3.index t (1 : Fin 2) = t.val / 16 :=
  (by decide +kernel : ∀ t : Fin grid0.N, _)

/-- The block of x at point t is rows (t % 16) · 512 … of x. -/
theorem rows_apply (c : Dev nD) (t : Fin cfg0.N) (y : S512x2048.Idx) (k : S8192x2048.Idx)
    (hk0 : (k 0).val = t.val % 16 * 512 + (y 0).val) (hk1 : (k 1).val = (y 1).val) :
    (iblk0 V c 0 t : Vec Ideal S512x2048 .f32) y = (V c main_arg0 : S8192x2048.Idx → EReal) k := by
  obtain ⟨e0, e1, -⟩ := block_indices t
  unfold iblk0
  rw [View.read_apply]
  show V c main_arg0 _ = V c main_arg0 _
  congr 1
  funext a
  apply Fin.ext
  match a with
  | ⟨0, _⟩ => show win0_0.index t 0 * 512 + 1 * (y 0).val = (k 0).val; rw [e0, hk0]; omega
  | ⟨1, _⟩ => show win0_0.index t 1 * 2048 + 1 * (y 1).val = (k 1).val; rw [e1, hk1]; omega

/-- The block of the weight at point t is columns (t / 16) · 4096 … of the weight. -/
theorem cols_apply (c : Dev nD) (t : Fin cfg0.N) (y : S2048x4096.Idx) (k : S2048x8192.Idx)
    (hk0 : (k 0).val = (y 0).val) (hk1 : (k 1).val = t.val / 16 * 4096 + (y 1).val) :
    (iblk0 V c 1 t : Vec Ideal S2048x4096 .bf16) y = (V c main_v0 : S2048x8192.Idx → EReal) k := by
  obtain ⟨-, -, e0, e1, -⟩ := block_indices t
  unfold iblk0
  rw [View.read_apply]
  show V c main_v0 _ = V c main_v0 _
  congr 1
  funext a
  apply Fin.ext
  match a with
  | ⟨0, _⟩ => show win0_1.index t 0 * 2048 + 1 * (y 0).val = (k 0).val; rw [e0, hk0]; omega
  | ⟨1, _⟩ => show win0_1.index t 1 * 4096 + 1 * (y 1).val = (k 1).val; rw [e1, hk1]; omega

/-- The block of the bias at point t is entries (t / 16) · 4096 … of the bias. -/
theorem bias_apply (c : Dev nD) (t : Fin cfg0.N) (y : S4096.Idx) (k : S8192.Idx)
    (hk0 : (k 0).val = t.val / 16 * 4096 + (y 0).val) :
    (iblk0 V c 2 t : Vec Ideal S4096 .f32) y = (V c main_arg2 : S8192.Idx → EReal) k := by
  obtain ⟨-, -, -, -, e0, -⟩ := block_indices t
  unfold iblk0
  rw [View.read_apply]
  show V c main_arg2 _ = V c main_arg2 _
  congr 1
  funext a
  apply Fin.ext
  match a with
  | ⟨0, _⟩ => show win0_2.index t 0 * 4096 + 1 * (y 0).val = (k 0).val; rw [e0, hk0]; omega

/-! ## What a point writes back, the cover, and the array after the region -/

/-- The hidden array as the one function of the arrays the region finds. -/
abbrev hiddenOf (c : Dev nD) : S8192x8192.Idx → EReal :=
  Cert.Ffn.hidden (V c main_arg0) (V c main_v0) (V c main_arg2)

/-- What point t writes back is block t of the hidden array. -/
theorem flushed_eq (c : Dev nD) (t : Fin cfg0.N) :
    (dat0 V c).flushed 3 t = ((cfg0.win 3).blk t).view.read (Elt Ideal) (hiddenOf V c) := by
  show (cfg0.win 3).cut (grid0.coords t) ((dat0 V c).after 3 t) = _
  rw [after0_3]
  unfold out0_3
  rw [View.canon_unit_zero zeros2]
  simp only [View.ld_unit_zero (S := S512x2048) zeros2, View.ld_unit_zero (S := S2048x4096) zeros2,
    View.ld_unit_zero (S := S4096) zeros1]
  obtain ⟨-, -, -, -, -, e0, e1⟩ := block_indices t
  funext j
  show k0_pay1 (iblk0 V c 0 t) (iblk0 V c 1 t) (iblk0 V c 2 t) j = hiddenOf V c (((cfg0.win 3).blk t).view.emb j)
  refine point_eq _ _ _ _ _ _ (t.val % 16) (t.val / 16) (rows_apply V c t) (cols_apply V c t) (bias_apply V c t) j _ ?_ ?_
  · show win0_3.index t 0 * 512 + 1 * (j 0).val = _; rw [e0]; omega
  · show win0_3.index t 1 * 4096 + 1 * (j 1).val = _; rw [e1]; omega

/-- An index of the hidden array is in point t's block iff each coordinate is in the block's range on its axis. -/
theorem mem_blk (t : Fin cfg0.N) (i : S8192x8192.Idx) :
    i ∈ ((cfg0.win 3).blk t).view.set ↔ ∀ a : Fin 2, win0_3.index t a * S512x4096.size a ≤ (i a).val ∧ (i a).val < win0_3.index t a * S512x4096.size a + S512x4096.size a := by
  show i ∈ ((View.whole main_call0_v0).slice (win0_3.rect t)).set ↔ _
  rw [View.set_slice_whole, Rect.mem_set_unit]
  exact Iff.rfl

/-- The 32 blocks tile the hidden array: (r, c) is in the block of point (c / 4096) · 16 + r / 512. -/
theorem cover (i : S8192x8192.Idx) :
    ∃ t : Fin cfg0.N, (cfg0.win 3).flush t = true ∧ i ∈ ((cfg0.win 3).blk t).view.set := by
  have h0 : (i 0).val < 8192 := (i 0).isLt
  have h1 : (i 1).val < 8192 := (i 1).isLt
  have hN : cfg0.N = 32 := N_0
  obtain ⟨t, ht⟩ : ∃ t : Fin cfg0.N, t.val = (i 1).val / 4096 * 16 + (i 0).val / 512 :=
    ⟨⟨(i 1).val / 4096 * 16 + (i 0).val / 512, by rw [hN]; omega⟩, rfl⟩
  obtain ⟨-, -, -, -, -, e0, e1⟩ := block_indices t
  refine ⟨t, flush0_3 t, ?_⟩
  rw [mem_blk]
  intro a
  match a with
  | ⟨0, _⟩ =>
    show win0_3.index t 0 * 512 ≤ (i 0).val ∧ (i 0).val < win0_3.index t 0 * 512 + 512
    rw [e0, ht]; omega
  | ⟨1, _⟩ =>
    show win0_3.index t 1 * 4096 ≤ (i 1).val ∧ (i 1).val < win0_3.index t 1 * 4096 + 4096
    rw [e1, ht]; omega

/-- After the region's last write-back its output array is the hidden array of the arrays it found. -/
theorem final (c : Dev nD) : (dat0 V c).arrAt 3 cfg0.N = hiddenOf V c :=
  (dat0 V c).arrAt_eq_of_cover 3 (hiddenOf V c) (fun t _ => flushed_eq V c t) cover

end Cert.KernelIdeal.Layer1

end
-- ==== Proof.Layer2.lean ====
/-
  The second kernel region, read as values. Its grid has 16 points; at point t the body multiplies the [512, 8192]
  block of rows t · 512 … of the hidden array by the whole narrow copy of W2, adds b2 along the columns and writes
  the [512, 2048] block of rows t · 512 … of the result. Entry (r, c) of what point t writes is
  (Σ_k h[r,k] · W2'[k,c]) + b2[c] at the array's own (r, c): again every point writes a restriction of ONE function
  of the arrays the region finds, and the 16 row blocks tile the result. Stated for arbitrary entry contents `V`.
-/
import proofs.«155103_g86363202388559_cont_9to1c4b_744_23_alg».proof.Proof.Gen.KernelIdeal.Frame
import proofs.«155103_g86363202388559_cont_9to1c4b_744_23_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Layer2

open Cert.KernelIdeal Cert.KernelIdeal.Gen Idealize.ShloMosaic Idealize.ShloMosaic.TcCoe Idealize.SL.Sem
open Idealize.ShloMosaic.ValueIdx
open Idealize.ShloMosaic.Pipeline (Dat)

theorem zeros2 : (![0, 0] : Fin 2 → Nat) = fun _ => 0 := funext fun a => by fin_cases a <;> rfl
theorem zeros1 : (![0] : Fin 1 → Nat) = fun _ => 0 := funext fun a => by fin_cases a <;> rfl

/-! ## The body's arithmetic at one entry of the block -/

/-- The left operand of the block product is read along the output's row … -/
theorem lhs_row (i : S512x2048.Idx) (q : dot_S512x8192_S8192x2048_S512x2048_1_0_0_1_n_n.contr.Idx) :
    (dot_S512x8192_S8192x2048_S512x2048_1_0_0_1_n_n.lhsIdx i q 0).val = (i 0).val := by
  unfold DotDims.lhsIdx
  rw [dif_neg (show ¬(0 : Fin S512x8192.rank) ∈ dot_S512x8192_S8192x2048_S512x2048_1_0_0_1_n_n.lhsBatch by decide), dif_pos (show (0 : Fin S512x8192.rank) ∈ dot_S512x8192_S8192x2048_S512x2048_1_0_0_1_n_n.lhsNonContracting by decide)]
  rfl
/-- … and the right operand down the output's column. -/
theorem rhs_col (i : S512x2048.Idx) (q : dot_S512x8192_S8192x2048_S512x2048_1_0_0_1_n_n.contr.Idx) :
    (dot_S512x8192_S8192x2048_S512x2048_1_0_0_1_n_n.rhsIdx i q 1).val = (i 1).val := by
  unfold DotDims.rhsIdx
  rw [dif_neg (show ¬(1 : Fin S8192x2048.rank) ∈ dot_S512x8192_S8192x2048_S512x2048_1_0_0_1_n_n.rhsBatch by decide), dif_pos (show (1 : Fin S8192x2048.rank) ∈ dot_S512x8192_S8192x2048_S512x2048_1_0_0_1_n_n.rhsNonContracting by decide)]
  rfl

/-- The block product into a zero accumulator, at (p, q): the sum over the 8192 contracted coordinates. -/
theorem product_apply (x0 : FVec Ideal S512x8192 .bf16) (x1 : FVec Ideal S8192x2048 .bf16) (p : Fin 512) (q : Fin 2048) :
    FloatOps.matmul dot_S512x8192_S8192x2048_S512x2048_1_0_0_1_n_n none x0 x1 (constant (F := Ideal) S512x2048 .f32 0x00000000#32) (ix2 p q)
      = ∑ k : Fin 8192, x0 (ix2 p k) * x1 (ix2 k q) := by
  rw [Ideal.matmul_constant_zero_apply, ← Equiv.sum_comp (contrEquiv1 dot_S512x8192_S8192x2048_S512x2048_1_0_0_1_n_n 8192 rfl rfl).symm]
  refine Finset.sum_congr rfl fun k _ => ?_
  have hk := contrEquiv1_symm_val dot_S512x8192_S8192x2048_S512x2048_1_0_0_1_n_n 8192 rfl rfl k
  have el : dot_S512x8192_S8192x2048_S512x2048_1_0_0_1_n_n.lhsIdx (ix2 p q) ((contrEquiv1 dot_S512x8192_S8192x2048_S512x2048_1_0_0_1_n_n 8192 rfl rfl).symm k) = ix2 p k := funext fun a => Fin.ext (by
    match a with
    | ⟨0, _⟩ => exact lhs_row _ _
    | ⟨1, _⟩ => exact (dot_S512x8192_S8192x2048_S512x2048_1_0_0_1_n_n.lhsIdx_val_of_single rfl _ _).trans hk)
  have er : dot_S512x8192_S8192x2048_S512x2048_1_0_0_1_n_n.rhsIdx (ix2 p q) ((contrEquiv1 dot_S512x8192_S8192x2048_S512x2048_1_0_0_1_n_n 8192 rfl rfl).symm k) = ix2 k q := funext fun a => Fin.ext (by
    match a with
    | ⟨0, _⟩ => exact (dot_S512x8192_S8192x2048_S512x2048_1_0_0_1_n_n.rhsIdx_val_of_single rfl _ _).trans hk
    | ⟨1, _⟩ => exact rhs_col _ _)
  rw [el, er]

/-- What the body stores, at (p, q) of the block: the block product's entry plus the bias at q. -/
theorem pay_apply (x0 : Vec Ideal S512x8192 .bf16) (x1 : Vec Ideal S8192x2048 .bf16) (x2 : Vec Ideal S2048 .f32)
    (p : Fin 512) (q : Fin 2048) :
    k1_pay1 x0 x1 x2 (ix2 p q) = (∑ k : Fin 8192, x0 (ix2 p k) * x1 (ix2 k q)) + x2 (ix1 q) := by
  unfold k1_pay1
  show FloatOps.matmul dot_S512x8192_S8192x2048_S512x2048_1_0_0_1_n_n none (shapeCast S512x8192 x0 shapeCasts_S512x8192_S512x8192)
        (shapeCast S8192x2048 x1 shapeCasts_S8192x2048_S8192x2048)
        (constant (F := Ideal) S512x2048 .f32 0x00000000#32) (ix2 p q)
      + broadcastTo S512x2048 (shapeCast S1x2048 x2 shapeCasts_S2048_S1x2048) broadcasts_S1x2048_S512x2048 (ix2 p q) = _
  rw [shapeCast_self, shapeCast_self, product_apply, broadcastTo_1b_ab_apply, shapeCast_a_1a_apply]

/-- The same entry with the three blocks recognised as pieces of arrays `h`, `w`, `b`: when the row block starts at
    row `tr · 512`, entry `j` of the stored block is the second layer's value at the array index `i` that `j` lands on. -/
theorem point_eq (h : S8192x8192.Idx → EReal) (w : S8192x2048.Idx → EReal) (b : S2048.Idx → EReal)
    (x0 : Vec Ideal S512x8192 .bf16) (x1 : Vec Ideal S8192x2048 .bf16) (x2 : Vec Ideal S2048 .f32) (tr : Nat)
    (h0 : ∀ (y : S512x8192.Idx) (k : S8192x8192.Idx), (k 0).val = tr * 512 + (y 0).val → (k 1).val = (y 1).val → x0 y = h k)
    (h1 : ∀ (y : S8192x2048.Idx) (k : S8192x2048.Idx), (k 0).val = (y 0).val → (k 1).val = (y 1).val → x1 y = w k)
    (h2 : ∀ (y : S2048.Idx) (k : S2048.Idx), (k 0).val = (y 0).val → x2 y = b k)
    (j : S512x2048.Idx) (i : S8192x2048.Idx) (hi0 : (i 0).val = tr * 512 + (j 0).val) (hi1 : (i 1).val = (j 1).val) :
    k1_pay1 x0 x1 x2 j = Cert.Ffn.affine h w b i := by
  obtain ⟨p, q, rfl⟩ : ∃ (p : Fin 512) (q : Fin 2048), j = ix2 p q := ⟨j 0, j 1, eq_ix2 j⟩
  obtain ⟨r, s, rfl⟩ : ∃ (r : Fin 8192) (s : Fin 2048), i = ix2 r s := ⟨i 0, i 1, eq_ix2 i⟩
  rw [pay_apply]
  show _ = (∑ k : Fin 8192, h (ix2 r k) * w (ix2 k s)) + b (ix1 s)
  rw [h2 (ix1 q) (ix1 s) hi1]
  refine congrArg (fun z => z + b (ix1 s)) (Finset.sum_congr rfl fun k _ => ?_)
  rw [h0 (ix2 p k) (ix2 r k) hi0 rfl, h1 (ix2 k q) (ix2 k s) rfl hi1]

/-! ## The blocks of the windows, as pieces of the arrays the region finds -/

variable (V : (c : Dev nD) → (b : Ref sig .tc) → Buf (Elt Ideal) ((c : Thread nD τ).loc b))

/-- The printed index maps over the 16 grid points: the hidden array and the result move with the row block t, the
    weight and the bias stay whole. -/
theorem block_indices : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 1) = 0
    ∧ win1_3.index t (0 : Fin 2) = t.val ∧ win1_3.index t (1 : Fin 2) = 0 :=
  (by decide +kernel : ∀ t : Fin grid1.N, _)

/-- The block of the hidden array at point t is its rows t · 512 …. -/
theorem rows_apply (c : Dev nD) (t : Fin cfg1.N) (y : S512x8192.Idx) (k : S8192x8192.Idx)
    (hk0 : (k 0).val = t.val * 512 + (y 0).val) (hk1 : (k 1).val = (y 1).val) :
    (iblk1 V c 0 t : Vec Ideal S512x8192 .bf16) y = (V c main_call0_v0 : S8192x8192.Idx → EReal) k := by
  obtain ⟨e0, e1, -⟩ := block_indices t
  unfold iblk1
  rw [View.read_apply]
  show V c main_call0_v0 _ = V c main_call0_v0 _
  congr 1
  funext a
  apply Fin.ext
  match a with
  | ⟨0, _⟩ => show win1_0.index t 0 * 512 + 1 * (y 0).val = (k 0).val; rw [e0, hk0]; omega
  | ⟨1, _⟩ => show win1_0.index t 1 * 8192 + 1 * (y 1).val = (k 1).val; rw [e1, hk1]; omega

/-- The block of the weight is the whole weight, at every point. -/
theorem weight_apply (c : Dev nD) (t : Fin cfg1.N) (y : S8192x2048.Idx) (k : S8192x2048.Idx)
    (hk0 : (k 0).val = (y 0).val) (hk1 : (k 1).val = (y 1).val) :
    (iblk1 V c 1 t : Vec Ideal S8192x2048 .bf16) y = (V c main_v1 : S8192x2048.Idx → EReal) k := by
  obtain ⟨-, -, e0, e1, -⟩ := block_indices t
  unfold iblk1
  rw [View.read_apply]
  show V c main_v1 _ = V c main_v1 _
  congr 1
  funext a
  apply Fin.ext
  match a with
  | ⟨0, _⟩ => show win1_1.index t 0 * 8192 + 1 * (y 0).val = (k 0).val; rw [e0, hk0]; omega
  | ⟨1, _⟩ => show win1_1.index t 1 * 2048 + 1 * (y 1).val = (k 1).val; rw [e1, hk1]; omega

/-- The block of the bias is the whole bias, at every point. -/
theorem bias_apply (c : Dev nD) (t : Fin cfg1.N) (y : S2048.Idx) (k : S2048.Idx)
    (hk0 : (k 0).val = (y 0).val) :
    (iblk1 V c 2 t : Vec Ideal S2048 .f32) y = (V c main_arg4 : S2048.Idx → EReal) k := by
  obtain ⟨-, -, -, -, e0, -⟩ := block_indices t
  unfold iblk1
  rw [View.read_apply]
  show V c main_arg4 _ = V c main_arg4 _
  congr 1
  funext a
  apply Fin.ext
  match a with
  | ⟨0, _⟩ => show win1_2.index t 0 * 2048 + 1 * (y 0).val = (k 0).val; rw [e0, hk0]; omega

/-! ## What a point writes back, the cover, and the array after the region -/

/-- The result as the one function of the arrays the region finds. -/
abbrev resultOf (c : Dev nD) : S8192x2048.Idx → EReal :=
  Cert.Ffn.affine (V c main_call0_v0) (V c main_v1) (V c main_arg4)

/-- What point t writes back is block t of the result. -/
theorem flushed_eq (c : Dev nD) (t : Fin cfg1.N) :
    (dat1 V c).flushed 3 t = ((cfg1.win 3).blk t).view.read (Elt Ideal) (resultOf V c) := by
  show (cfg1.win 3).cut (grid1.coords t) ((dat1 V c).after 3 t) = _
  rw [after1_3]
  unfold out1_3
  rw [View.canon_unit_zero zeros2]
  simp only [View.ld_unit_zero (S := S512x8192) zeros2, View.ld_unit_zero (S := S8192x2048) zeros2,
    View.ld_unit_zero (S := S2048) zeros1]
  obtain ⟨-, -, -, -, -, e0, e1⟩ := block_indices t
  funext j
  show k1_pay1 (iblk1 V c 0 t) (iblk1 V c 1 t) (iblk1 V c 2 t) j = resultOf V c (((cfg1.win 3).blk t).view.emb j)
  refine point_eq _ _ _ _ _ _ t.val (rows_apply V c t) (weight_apply V c t) (bias_apply V c t) j _ ?_ ?_
  · show win1_3.index t 0 * 512 + 1 * (j 0).val = _; rw [e0]; omega
  · show win1_3.index t 1 * 2048 + 1 * (j 1).val = _; rw [e1]; omega

/-- An index of the result is in point t's block iff each coordinate is in the block's range on its axis. -/
theorem mem_blk (t : Fin cfg1.N) (i : S8192x2048.Idx) :
    i ∈ ((cfg1.win 3).blk t).view.set ↔ ∀ a : Fin 2, win1_3.index t a * S512x2048.size a ≤ (i a).val ∧ (i a).val < win1_3.index t a * S512x2048.size a + S512x2048.size a := by
  show i ∈ ((View.whole main_v2).slice (win1_3.rect t)).set ↔ _
  rw [View.set_slice_whole, Rect.mem_set_unit]
  exact Iff.rfl

/-- The 16 row blocks tile the result: (r, c) is in the block of point r / 512. -/
theorem cover (i : S8192x2048.Idx) :
    ∃ t : Fin cfg1.N, (cfg1.win 3).flush t = true ∧ i ∈ ((cfg1.win 3).blk t).view.set := by
  have h0 : (i 0).val < 8192 := (i 0).isLt
  have h1 : (i 1).val < 2048 := (i 1).isLt
  have hN : cfg1.N = 16 := N_1
  obtain ⟨t, ht⟩ : ∃ t : Fin cfg1.N, t.val = (i 0).val / 512 :=
    ⟨⟨(i 0).val / 512, by rw [hN]; omega⟩, rfl⟩
  obtain ⟨-, -, -, -, -, e0, e1⟩ := block_indices t
  refine ⟨t, flush1_3 t, ?_⟩
  rw [mem_blk]
  intro a
  match a with
  | ⟨0, _⟩ =>
    show win1_3.index t 0 * 512 ≤ (i 0).val ∧ (i 0).val < win1_3.index t 0 * 512 + 512
    rw [e0, ht]; omega
  | ⟨1, _⟩ =>
    show win1_3.index t 1 * 2048 ≤ (i 1).val ∧ (i 1).val < win1_3.index t 1 * 2048 + 2048
    rw [e1]; omega

/-- After the region's last write-back its output array is the second layer of the arrays it found. -/
theorem final (c : Dev nD) : (dat1 V c).arrAt 3 cfg1.N = resultOf V c :=
  (dat1 V c).arrAt_eq_of_cover 3 (resultOf V c) (fun t _ => flushed_eq V c t) cover

end Cert.KernelIdeal.Layer2

end
-- ==== Proof.Network.lean ====
/-
  The kernel program's result as one function of its five arguments, at the exact values. The host stretch only
  rounds W1 and W2 to the narrow format, which is the identity on extended reals; no region writes an argument; the
  first region leaves the hidden array relu (x · W1 + b1) in its output array (Layer1), which the second region
  finds there and turns into hidden · W2 + b2 (Layer2). Chained through the boundaries of the run (Whole), the
  result buffer ends at the network of Spec.lean applied to the launch contents of the arguments.
-/
import proofs.«155103_g86363202388559_cont_9to1c4b_744_23_alg».proof.Proof.Whole
import proofs.«155103_g86363202388559_cont_9to1c4b_744_23_alg».proof.Proof.Layer1
import proofs.«155103_g86363202388559_cont_9to1c4b_744_23_alg».proof.Proof.Layer2
import Idealize.ShloMosaic.Lib.StableHlo.Run

noncomputable section

namespace Cert.KernelIdeal.Network

open Cert.KernelIdeal Cert.KernelIdeal.Gen Idealize.ShloMosaic Idealize.ShloMosaic.TcCoe Idealize.SL.Sem
open Idealize.ShloMosaic.StableHlo
open Idealize.ShloMosaic.Pipeline (Dat)

variable (m : (ℓ : Loc nD τ sig) → Buf (Elt Ideal) ℓ) (ρ : Dev nD → PrngReg)

/-! ## The contents the first region finds -/

/-- x is as launched. -/
theorem entry_x (c : Dev nD) : V1 m ρ c main_arg0 = m ((c : Thread nD τ).loc main_arg0) := by
  show StableHlo.after hostOps0 (W0 m ρ c) (Proc.devRef .tc main_arg0) = _
  after_results

/-- The narrow copy of W1 is W1. -/
theorem entry_w1 (c : Dev nD) :
    (V1 m ρ c main_v0 : S2048x8192.Idx → EReal) = m ((c : Thread nD τ).loc main_arg1) := by
  show StableHlo.after hostOps0 (W0 m ρ c) (Proc.devRef .tc main_v0) = _
  after_results
  rfl

/-- b1 is as launched. -/
theorem entry_b1 (c : Dev nD) : V1 m ρ c main_arg2 = m ((c : Thread nD τ).loc main_arg2) := by
  show StableHlo.after hostOps0 (W0 m ρ c) (Proc.devRef .tc main_arg2) = _
  after_results

/-! ## The contents the second region finds -/

/-- The first region's output array holds the hidden activations of the launch contents. -/
theorem mid_hidden (c : Dev nD) :
    (V2 m ρ c main_call0_v0 : S8192x8192.Idx → EReal)
      = Cert.Ffn.hidden (m ((c : Thread nD τ).loc main_arg0)) (m ((c : Thread nD τ).loc main_arg1)) (m ((c : Thread nD τ).loc main_arg2)) := by
  refine (W2_arr m ρ c 3).trans ((Layer1.final (V1 m ρ) c).trans ?_)
  show Cert.Ffn.hidden (V1 m ρ c main_arg0) (V1 m ρ c main_v0) (V1 m ρ c main_arg2) = _
  rw [entry_x m ρ c, entry_w1 m ρ c, entry_b1 m ρ c]

/-- The narrow copy of W2 is W2: the first region does not touch it. -/
theorem mid_w2 (c : Dev nD) :
    (V2 m ρ c main_v1 : S8192x2048.Idx → EReal) = m ((c : Thread nD τ).loc main_arg3) := by
  refine (W2_of_ne m ρ c main_v1 (by decide)).trans ?_
  show StableHlo.after hostOps0 (W0 m ρ c) (Proc.devRef .tc main_v1) = _
  after_results
  rfl

/-- b2 is as launched. -/
theorem mid_b2 (c : Dev nD) : V2 m ρ c main_arg4 = m ((c : Thread nD τ).loc main_arg4) := by
  refine (W2_of_ne m ρ c main_arg4 (by decide)).trans ?_
  show StableHlo.after hostOps0 (W0 m ρ c) (Proc.devRef .tc main_arg4) = _
  after_results

/-! ## The result -/

/-- The network of the launch contents of the five arguments. -/
abbrev out (c : Dev nD) : S8192x2048.Idx → EReal :=
  Cert.Ffn.ffn (m ((c : Thread nD τ).loc main_arg0)) (m ((c : Thread nD τ).loc main_arg1)) (m ((c : Thread nD τ).loc main_arg2))
    (m ((c : Thread nD τ).loc main_arg3)) (m ((c : Thread nD τ).loc main_arg4))

/-- The second region's output array after its last write-back is the network of the launch contents. -/
theorem result (c : Dev nD) : (dat1 (V2 m ρ) c).arrAt 3 cfg1.N = out m c := by
  refine (Layer2.final (V2 m ρ) c).trans ?_
  show Cert.Ffn.affine (V2 m ρ c main_call0_v0) (V2 m ρ c main_v1) (V2 m ρ c main_arg4) = _
  rw [mid_hidden m ρ c, mid_w2 m ρ c, mid_b2 m ρ c]
  rfl

/-- The run, read: the result buffer ends at the network of the arguments, the arguments unchanged. -/
theorem run : θ_run defs (onTc (τ := τ) (main (F := Ideal))) ⟨m, fun _ => 0, ρ⟩ (fun r => ∀ c : Dev nD,
      r.2.mem ((c.tc : Thread nD τ).loc main_v2) = out m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨(h c).1.trans (result m ρ c), (h c).2⟩) (Whole.run_named m ρ)

end Cert.KernelIdeal.Network

end
-- ==== Proof.lean ====
/-
  The certificate of a two-layer feed-forward network, out = relu (x · W1 + b1) · W2 + b2, computed by two matrix
  kernels — the first leaves the hidden activations in an intermediate array, the second multiplies them by W2 —
  against the same expression written with plain array operations. Over the extended reals both are ONE function
  of the five arguments (Proof/Spec.lean): a matrix product is the sum over the contracted coordinate whether it is
  taken block by block or whole, a change of float format is the identity, and the maximum with zero is the same
  operation on both sides; no law that needs finite entries is used, so the precondition is never opened.
  The three frames are the generated ones (the reference's is its generated run with the result dropped); the ideal
  pass rewrote nothing, so there is nothing to preserve; the value claim joins the kernel program's run
  (Proof/Network.lean) to the reference's generated run read entry by entry (Proof/RefValue.lean).
-/
import proofs.«155103_g86363202388559_cont_9to1c4b_744_23_alg».proof.Defs
import proofs.«155103_g86363202388559_cont_9to1c4b_744_23_alg».proof.Proof.Gen.Kernel
import proofs.«155103_g86363202388559_cont_9to1c4b_744_23_alg».proof.Proof.Gen.Kernel.Skeleton
import proofs.«155103_g86363202388559_cont_9to1c4b_744_23_alg».proof.Proof.Gen.Kernel.Launch
import proofs.«155103_g86363202388559_cont_9to1c4b_744_23_alg».proof.Proof.Gen.Kernel.Points
import proofs.«155103_g86363202388559_cont_9to1c4b_744_23_alg».proof.Proof.Gen.Kernel.Frame
import proofs.«155103_g86363202388559_cont_9to1c4b_744_23_alg».proof.Proof.Gen.KernelIdeal
import proofs.«155103_g86363202388559_cont_9to1c4b_744_23_alg».proof.Proof.Gen.KernelIdeal.Skeleton
import proofs.«155103_g86363202388559_cont_9to1c4b_744_23_alg».proof.Proof.Gen.KernelIdeal.Launch
import proofs.«155103_g86363202388559_cont_9to1c4b_744_23_alg».proof.Proof.Gen.KernelIdeal.Points
import proofs.«155103_g86363202388559_cont_9to1c4b_744_23_alg».proof.Proof.Gen.KernelIdeal.Frame
import proofs.«155103_g86363202388559_cont_9to1c4b_744_23_alg».proof.Proof.Gen.ReferenceIdeal
import proofs.«155103_g86363202388559_cont_9to1c4b_744_23_alg».proof.Proof.Gen.Pre_finite_inputs
import proofs.«155103_g86363202388559_cont_9to1c4b_744_23_alg».proof.Proof.Gen.ReferenceIdeal.Run
import proofs.«155103_g86363202388559_cont_9to1c4b_744_23_alg».proof.Proof.Gen.ReferenceIdeal.Read
import proofs.«155103_g86363202388559_cont_9to1c4b_744_23_alg».proof.Proof.RefValue
import proofs.«155103_g86363202388559_cont_9to1c4b_744_23_alg».proof.Proof.Network
import Idealize.ShloMosaic.Adequacy
import Idealize.ShloMosaic.Init

noncomputable section

namespace Cert.Proof

open Idealize.ShloMosaic Idealize.SL.Sem

/-- The kernel program as printed runs, and leaves its arguments alone. -/
theorem frame_kernel : Cert.frame_Kernel := fun m ρ _ => Cert.Kernel.Gen.frame m ρ

/-- So does its reading at the exact values. -/
theorem frame_kernelIdeal : Cert.frame_KernelIdeal := fun m ρ _ => Cert.KernelIdeal.Gen.frame m ρ

/-- The reference runs and leaves its arguments alone: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the five arguments, both programs end with the network of those arguments in their
    result buffers: the kernel program by its two regions' values chained, the reference by its stages read at an
    index. -/
theorem algebraic : Cert.algebraic_KernelIdeal_ReferenceIdeal := by
  intro m ρ m' ρ' _ hagree
  refine ⟨fun c => Cert.KernelIdeal.Network.out m c, Cert.KernelIdeal.Network.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v9_eq, Cert.ReferenceIdeal.RefValue.ref_eq,
    (hagree c).1, (hagree c).2.1, (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
